-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel

variable [Facts]

def fn {F : FTy → Type} [FloatOps F] (main_arg0 : FVec F S16777216x2 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  main_v3
-- ==== Kernel.lean ====
abbrev S16777216x2 : Shape := ⟨2, ![16777216, 2]⟩
abbrev S16777216x4 : Shape := ⟨2, ![16777216, 4]⟩
abbrev S16384x2 : Shape := ⟨2, ![16384, 2]⟩
abbrev S16384x4 : Shape := ⟨2, ![16384, 4]⟩
abbrev S16384x1 : Shape := ⟨2, ![16384, 1]⟩
abbrev S16384 : Shape := ⟨1, ![16384]⟩

abbrev nBuf : Space → Nat
  | .hbm => 2
  | .vmem => 4
  | .smem => 0
  | _ => 0

abbrev bufTy : (tb : Table) → Fin (tcTables nBuf tb) → BufTy
  | .hbm, ⟨0, _⟩ => ⟨S16777216x2, .f32⟩
  | .hbm, ⟨1, _⟩ => ⟨S16777216x4, .f32⟩
  | .local _ .vmem, ⟨0, _⟩ => ⟨S16384x2, .f32⟩
  | .local _ .vmem, ⟨1, _⟩ => ⟨S16384x2, .f32⟩
  | .local _ .vmem, ⟨2, _⟩ => ⟨S16384x4, .f32⟩
  | .local _ .vmem, ⟨3, _⟩ => ⟨S16384x4, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x2_S16384x2_0_0 : ∀ a, (![0, 0] : Fin 2 → Nat) a + S16384x2.size a ≤ S16384x2.size a
  h_S16384x2 : 0 < S16384x2.numel
  slices_S16384x2_o0_0_S16384x1 : S16384x2.Slices ![0, 0] S16384x1
  shapeCasts_S16384x1_S16384 : S16384x1.ShapeCasts S16384
  slices_S16384x2_o0_1_S16384x1 : S16384x2.Slices ![0, 1] S16384x1
  natLt_1_32 : 1 < 32
  shapeCasts_S16384_S16384x1 : S16384.ShapeCasts S16384x1
  concatenates_S16384x1_S16384x1_S16384x1_S16384x1_S16384x4_d1 : Shape.Concatenates [S16384x1, S16384x1, S16384x1, S16384x1] S16384x4 1
  inb_S16384x4_S16384x4_0_0 : ∀ a, (![0, 0] : Fin 2 → Nat) a + S16384x4.size a ≤ S16384x4.size a
  h_S16384x4 : 0 < S16384x4.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x2.size a ≤ S16777216x2.size a
  hwx0_0 : ∀ i : grid0.Coords, EltTy.bits .f32 = 32 ∨ (Rect.block (s := S16777216x2) S16384x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x4.size a ≤ S16777216x4.size a
  hwx0_1 : ∀ i : grid0.Coords, EltTy.bits .f32 = 32 ∨ (Rect.block (s := S16777216x4) S16384x4.size (cc0_transform_1 i) (hinb0_1 i)).WholeWords (EltTy.packing .f32)

variable [Facts₀]

abbrev win0_0 : Pipeline.Window sig grid0 :=
  Pipeline.Window.ofSpec (Memref.whole main_arg0) S16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S16777216x1 : Shape := ⟨2, ![16777216, 1]⟩
abbrev S16777216 : Shape := ⟨1, ![16777216]⟩
abbrev S_ : Shape := ⟨0, ![]⟩
abbrev S16777216x4 : Shape := ⟨2, ![16777216, 4]⟩

abbrev nBuf : Space → Nat
  | .hbm => 39
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216x1, .f32⟩
  | .hbm, ⟨2, _⟩ => ⟨S16777216, .f32⟩
  | .hbm, ⟨3, _⟩ => ⟨S16777216x1, .f32⟩
  | .hbm, ⟨4, _⟩ => ⟨S16777216, .f32⟩
  | .hbm, ⟨5, _⟩ => ⟨S_, .f32⟩
  | .hbm, ⟨6, _⟩ => ⟨S16777216, .f32⟩
  | .hbm, ⟨7, _⟩ => ⟨S16777216, .i1⟩
  | .hbm, ⟨8, _⟩ => ⟨S_, .f32⟩
  | .hbm, ⟨9, _⟩ => ⟨S16777216, .f32⟩
  | .hbm, ⟨10, _⟩ => ⟨S16777216, .i1⟩
  | .hbm, ⟨11, _⟩ => ⟨S16777216, .i1⟩
  | .hbm, ⟨12, _⟩ => ⟨S_, .f32⟩
  | .hbm, ⟨13, _⟩ => ⟨S16777216, .f32⟩
  | .hbm, ⟨14, _⟩ => ⟨S16777216, .i1⟩
  | .hbm, ⟨15, _⟩ => ⟨S_, .f32⟩
  | .hbm, ⟨16, _⟩ => ⟨S16777216, .f32⟩
  | .hbm, ⟨17, _⟩ => ⟨S16777216, .i1⟩
  | .hbm, ⟨18, _⟩ => ⟨S16777216, .i1⟩
  | .hbm, ⟨19, _⟩ => ⟨S_, .f32⟩
  | .hbm, ⟨20, _⟩ => ⟨S16777216, .f32⟩
  | .hbm, ⟨21, _⟩ => ⟨S16777216, .i1⟩
  | .hbm, ⟨22, _⟩ => ⟨S_, .f32⟩
  | .hbm, ⟨23, _⟩ => ⟨S16777216, .f32⟩
  | .hbm, ⟨24, _⟩ => ⟨S16777216, .i1⟩
  | .hbm, ⟨25, _⟩ => ⟨S16777216, .i1⟩
  | .hbm, ⟨26, _⟩ => ⟨S_, .f32⟩
  | .hbm, ⟨27, _⟩ => ⟨S16777216, .f32⟩
  | .hbm, ⟨28, _⟩ => ⟨S16777216, .i1⟩
  | .hbm, ⟨29, _⟩ => ⟨S_, .f32⟩
  | .hbm, ⟨30, _⟩ => ⟨S16777216, .f32⟩
  | .hbm, ⟨31, _⟩ => ⟨S16777216, .i1⟩
  | .hbm, ⟨32, _⟩ => ⟨S16777216, .i1⟩
  | .hbm, ⟨33, _⟩ => ⟨S16777216x1, .i1⟩
  | .hbm, ⟨34, _⟩ => ⟨S16777216x1, .i1⟩
  | .hbm, ⟨35, _⟩ => ⟨S16777216x1, .i1⟩
  | .hbm, ⟨36, _⟩ => ⟨S16777216x1, .i1⟩
  | .hbm, ⟨37, _⟩ => ⟨S16777216x4, .i1⟩
  | .hbm, ⟨38, _⟩ => ⟨S16777216x4, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  slices_S16777216x2_S16777216x1_0_0 : S16777216x2.Slices ![0, 0] S16777216x1
  shapeCasts_S16777216x1_S16777216 : S16777216x1.ShapeCasts S16777216
  slices_S16777216x2_S16777216x1_0_1 : S16777216x2.Slices ![0, 1] S16777216x1
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x1_S16777216x1_S16777216x4_d1 : Shape.Concatenates [S16777216x1, S16777216x1, S16777216x1, S16777216x1] S16777216x4 1

variable [Facts₀]

class Facts : Prop extends Facts₀ where

variable [Facts]
-- ==== Proof.Quadrant.lean ====
/-
  Which open quadrant of the plane a point lies in, as a one-hot row of four numbers.

  For a point (a, b) of the extended real plane the quadrants are numbered counterclockwise from the one where both
  coordinates are positive:
      0 : a > 0 and b > 0        1 : a < 0 and b > 0        2 : a < 0 and b < 0        3 : a > 0 and b < 0.
  The point's indicator for quadrant k is 1 when it lies strictly inside that quadrant and 0 otherwise, so a point on
  either axis has all four indicators 0, and any other point has exactly one indicator 1. The comparisons are the
  linear order's on the extended reals, so they are meaningful at the infinities too and nothing below needs the
  coordinates to be finite.

  The array function: row r of an array of points (two columns, the coordinates) goes to the row of its four
  indicators. Each output row depends on the same-numbered input row and on nothing else.

  The one law used to join two ways of turning a membership bit into a number: a single bit padded with zeros to 32
  bits and read as a SIGNED integer is the bit read as an UNSIGNED integer, because the padded word is 0 or 1 and its
  sign bit is clear.
-/
import Idealize.ShloMosaic.PureOps.Ideal
import Idealize.ShloMosaic.Lib.ValueIdx

noncomputable section

namespace Cert.Quadrant

open Idealize.ShloMosaic Idealize.ShloMosaic.ValueIdx

/-- The coordinate of the axes: zero, spelt as the float word that denotes it. -/
abbrev axis : Ideal .f32 := FloatOps.ofBits (F := Ideal) .f32 0x00000000#32

/-- The bit "a lies strictly on the positive side of the axis". -/
abbrev above (a : Ideal .f32) : BitVec 1 := FloatOps.cmpf (F := Ideal) .ogt a axis

/-- The bit "a lies strictly on the negative side of the axis". -/
abbrev below (a : Ideal .f32) : BitVec 1 := FloatOps.cmpf (F := Ideal) .olt a axis

/-- The membership bit of the point (a, b) in the open quadrant numbered k: the conjunction of one side condition
    on each coordinate. -/
def member (k : Fin 4) (a b : Ideal .f32) : BitVec 1 :=
  match k with
  | ⟨0, _⟩ => IntOp.andi (above a) (above b)
  | ⟨1, _⟩ => IntOp.andi (below a) (above b)
  | ⟨2, _⟩ => IntOp.andi (below a) (below b)
  | ⟨3, _⟩ => IntOp.andi (above a) (below b)
  | ⟨_ + 4, h⟩ => absurd h (Nat.not_lt.2 (Nat.le_add_left _ _))

/-- The indicator of that quadrant at the point: the membership bit as a number, 0 or 1. -/
def indicator (k : Fin 4) (a b : Ideal .f32) : Ideal .f32 :=
  FloatOps.uitofp (F := Ideal) .f32 (member k a b)

/-- Entry k of the one-hot row of the point in row r of an array of 16384-row blocks or of the whole
    16777216-row array: stated for any number of rows n. -/
def rowEntry {n : Nat} (x : (⟨2, ![n, 2]⟩ : Shape).Idx → Ideal .f32) (r : Fin n) (k : Fin 4) : Ideal .f32 :=
  indicator k (x (ix2 r (0 : Fin 2))) (x (ix2 r (1 : Fin 2)))

/-- The array of one-hot rows of an array of n points. -/
def oneHot {n : Nat} (x : (⟨2, ![n, 2]⟩ : Shape).Idx → Ideal .f32) : (⟨2, ![n, 4]⟩ : Shape).Idx → Ideal .f32 :=
  fun i => rowEntry x (i 0) (i 1)

theorem oneHot_ix2 {n : Nat} (x : (⟨2, ![n, 2]⟩ : Shape).Idx → Ideal .f32) (r : Fin n) (k : Fin 4) :
    oneHot x (ix2 r k) = rowEntry x r k := rfl

/-- A single bit padded with zeros to 32 bits, read as a signed integer, is the bit read as a natural number:
    the padded word is 0 or 1. -/
theorem toInt_padded_bit : ∀ b : BitVec 1, (b.setWidth 32).toInt = (b.toNat : ℤ) := by decide

/-- So converting the padded bit as a signed integer gives the same number as converting the bit itself as an
    unsigned one. -/
theorem signed_of_padded_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_padded_bit b, Int.cast_natCast]

end Cert.Quadrant

end
-- ==== Proof.LibColumnCast.lean ====
/-
  Columns of a matrix as flat vectors, read at an index.

  A matrix with a single column holds the same numbers as the flat vector of its rows: in row-major order entry
  (r, 0) of an n-by-1 matrix sits at position r * 1 + 0 = r, which is position r of a vector of length n. So
  reshaping between the two shapes moves no number: the vector's entry r is the matrix's entry (r, 0), in both
  directions. Cutting column c out of an n-by-2 matrix and flattening it therefore reads, at r, the matrix at (r, c).

  General in the number of rows and in the type of the entries.
-/
import Idealize.ShloMosaic.Lib.Pipeline.Value
import Idealize.ShloMosaic.Lib.ValueIdx
import Idealize.ShloMosaic.Lib.ValueLayout

noncomputable section

namespace Idealize.ShloMosaic.ColumnCast

open Idealize.ShloMosaic Idealize.ShloMosaic.ValueIdx

variable {α : Type} {n : Nat}

/-- FLATTENING a one-column matrix: entry r of the vector is entry (r, 0) of the matrix (same row-major position). -/
theorem flatten_column_apply (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r (0 : Fin 1)) :=
  shapeCast_apply v h (ix1 r) (ix2 r (0 : Fin 1))
    (by rw [Shape.rowMajor_val_two, Shape.rowMajor_val_one]; show r.val * 1 + 0 = r.val; omega)

/-- STANDING a vector up as a one-column matrix: the matrix's entry in row r (its only column) is entry r of the
    vector. Stated at any index y of the matrix whose row is r. -/
theorem stand_column_apply (v : (⟨1, ![n]⟩ : Shape).Idx → α)
    (h : (⟨1, ![n]⟩ : Shape).ShapeCasts ⟨2, ![n, 1]⟩) (y : (⟨2, ![n, 1]⟩ : Shape).Idx) (r : Fin n)
    (hy : (y 0).val = r.val) :
    shapeCast ⟨2, ![n, 1]⟩ v h y = v (ix1 r) :=
  shapeCast_apply v h y (ix1 r)
    (by
      rw [Shape.rowMajor_val_two, Shape.rowMajor_val_one]
      have h1 : (y 1).val < 1 := (y 1).isLt
      show r.val = (y 0).val * 1 + (y 1).val
      omega)

/-- COLUMN c of an n-by-2 matrix, cut out as a one-column matrix starting at column o = c and flattened, reads at
    r the matrix's entry (r, c). -/
theorem flat_column_apply (o : Nat) (X : (⟨2, ![n, 2]⟩ : Shape).Idx → α)
    (h : (⟨2, ![n, 2]⟩ : Shape).Slices ![0, o] ⟨2, ![n, 1]⟩)
    (h' : (⟨2, ![n, 1]⟩ : Shape).ShapeCasts ⟨1, ![n]⟩) (r : Fin n) (c : Fin 2) (hc : c.val = o) :
    shapeCast ⟨1, ![n]⟩ (extractStridedSlice ⟨2, ![n, 1]⟩ ![0, o] X h) h' (ix1 r) = X (ix2 r c) :=
  (flatten_column_apply _ h' r).trans
    (slice2_axis1_apply o X h r (0 : Fin 1) c (by rw [hc]; rfl))

end Idealize.ShloMosaic.ColumnCast

end
-- ==== Proof.KernelRows.lean ====
/-
  A block of the kernel's output is the one-hot quadrant rows of the block of points it was computed from.

  The body reads a block of 16384 points (two columns), cuts the two coordinate columns out and flattens them,
  compares each with zero from both sides, and for each of the four quadrants conjoins one comparison per coordinate,
  pads the bit with zeros to 32 bits, converts that word as a signed integer, and stands the resulting vector up as
  a column; the four columns are joined side by side. So entry (r, k) of the block it writes is the membership bit
  of the block's point r for quadrant k, padded and converted as signed; by the law that a padded bit read as signed
  is the bit read as unsigned, that is entry k of the point's one-hot row.

  A block's row r is row b * 16384 + r of the whole array when the block is the b-th, and the columns are not moved,
  so the block of the output computed from block b of the points is block b of the whole array's one-hot rows.
-/
import proofs.«146208_j50096498540623_2_alg».proof.Proof.Gen.KernelIdeal.Value
import proofs.«146208_j50096498540623_2_alg».proof.Proof.Quadrant
import proofs.«146208_j50096498540623_2_alg».proof.Proof.LibColumnCast

noncomputable section

namespace Cert.KernelIdeal.Rows

open Cert.KernelIdeal Cert.KernelIdeal.Gen Cert.Quadrant
open Idealize.ShloMosaic Idealize.ShloMosaic.ValueIdx Idealize.ShloMosaic.ColumnCast

/-- One column of the body's output at row r, for any pair of comparisons (p on the first coordinate, q on the
    second): the conjunction of the two comparisons of the point's coordinates with zero, as a number. The
    comparisons read the flattened coordinate columns at r, which are the block's entries (r, 0) and (r, 1); the
    padded bit converted as signed is the bit converted as unsigned. -/
theorem column_entry (p q : CmpFPredicate) (P0 : FVec Ideal S16384x2 .f32) (y : S16384x1.Idx) (r : Fin 16384)
    (hy : (y 0).val = r.val) :
    shapeCast S16384x1 (sitofp (F := Ideal) .f32 (extui 32 (andi
        (cmpf (F := Ideal) p (shapeCast S16384 (extractStridedSlice (s := S16384x2) S16384x1 ![0, 0] P0 slices_S16384x2_o0_0_S16384x1) shapeCasts_S16384x1_S16384)
          (broadcast S16384 (Scalar.ofBits (F := Ideal) .f32 0x00000000#32)))
        (cmpf (F := Ideal) q (shapeCast S16384 (extractStridedSlice (s := S16384x2) S16384x1 ![0, 1] P0 slices_S16384x2_o0_1_S16384x1) shapeCasts_S16384x1_S16384)
          (broadcast S16384 (Scalar.ofBits (F := Ideal) .f32 0x00000000#32)))) natLt_1_32)) shapeCasts_S16384_S16384x1 y
      = FloatOps.uitofp (F := Ideal) .f32 (IntOp.andi
          (FloatOps.cmpf (F := Ideal) p (P0 (ix2 r (0 : Fin 2))) axis)
          (FloatOps.cmpf (F := Ideal) q (P0 (ix2 r (1 : Fin 2))) axis)) := by
  refine (stand_column_apply _ shapeCasts_S16384_S16384x1 y r hy).trans ?_
  refine (signed_of_padded_bit _).trans ?_
  exact congrArg₂ (fun a c : Ideal .f32 => FloatOps.uitofp (F := Ideal) .f32
      (IntOp.andi (FloatOps.cmpf (F := Ideal) p a axis) (FloatOps.cmpf (F := Ideal) q c axis)))
    (flat_column_apply 0 P0 slices_S16384x2_o0_0_S16384x1 shapeCasts_S16384x1_S16384 r (0 : Fin 2) rfl)
    (flat_column_apply 1 P0 slices_S16384x2_o0_1_S16384x1 shapeCasts_S16384x1_S16384 r (1 : Fin 2) rfl)

/-- ENTRY (r, k) OF THE BLOCK THE BODY WRITES is entry k of the one-hot row of the point in row r of the block it
    read: the k-th joined column is the one built from quadrant k's pair of comparisons. -/
theorem block_entry (P0 : FVec Ideal S16384x2 .f32) (r : Fin 16384) (k : Fin 4) :
    Value.E1 (F := Ideal) P0 (ix2 r k) = rowEntry (n := 16384) P0 r k := by
  match k with
  | ⟨0, _⟩ => exact column_entry .ogt .ogt P0 _ r rfl
  | ⟨1, _⟩ => exact column_entry .olt .ogt P0 _ r rfl
  | ⟨2, _⟩ => exact column_entry .olt .olt P0 _ r rfl
  | ⟨3, _⟩ => exact column_entry .ogt .olt P0 _ r rfl
  | ⟨_ + 4, h⟩ => exact absurd h (Nat.not_lt.2 (Nat.le_add_left _ _))

/-- A BLOCK OF THE OUTPUT AGAINST THE WHOLE ARRAY. Let X be block b of the array A of points: X's row r is A's row
    b * 16384 + r, column for column. Then the body's block at y is the whole array's one-hot rows at the index i
    that sits at y inside block b (row b * 16384 + y's row, the same column). -/
theorem block_agrees (X : FVec Ideal S16384x2 .f32) (A : (⟨2, ![16777216, 2]⟩ : Shape).Idx → Ideal .f32) (b : Nat)
    (hX : ∀ (r : Fin 16384) (c : Fin 2) (R : Fin 16777216), R.val = b * 16384 + r.val → X (ix2 r c) = A (ix2 R c))
    (y : S16384x4.Idx) (i : (⟨2, ![16777216, 4]⟩ : Shape).Idx)
    (hrow : (i 0).val = b * 16384 + (y 0).val) (hcol : (i 1).val = (y 1).val) :
    Value.E1 (F := Ideal) X y = oneHot (n := 16777216) A i := by
  obtain ⟨r, k, rfl⟩ : ∃ (r : Fin 16384) (k : Fin 4), y = ix2 r k := ⟨y 0, y 1, eq_ix2 y⟩
  obtain ⟨R, k', rfl⟩ : ∃ (R : Fin 16777216) (k' : Fin 4), i = ix2 R k' := ⟨i 0, i 1, eq_ix2 i⟩
  obtain rfl : k' = k := Fin.ext hcol
  refine (block_entry X r k').trans ?_
  show indicator k' (X (ix2 r (0 : Fin 2))) (X (ix2 r (1 : Fin 2)))
      = indicator k' (A (ix2 R (0 : Fin 2))) (A (ix2 R (1 : Fin 2)))
  rw [hX r 0 R hrow, hX r 1 R hrow]

end Cert.KernelIdeal.Rows

end
-- ==== Proof.KernelArray.lean ====
/-
  The kernel's output array is the one-hot quadrant rows of its argument.

  The grid has 1024 points. Point t reads rows t * 16384 to t * 16384 + 16383 of the array of points, both columns,
  and writes back the same rows of the output, all four columns. What it writes is the one-hot rows of the block it
  read, and that is the same rows of the one-hot rows of the whole array of points. The 1024 written blocks tile the
  output's 16777216 = 1024 * 16384 rows: row R lies in the block of point R / 16384. So when the run ends the output
  array holds, at every index, the one-hot rows of the argument.
-/
import proofs.«146208_j50096498540623_2_alg».proof.Proof.KernelRows

noncomputable section

namespace Cert.KernelIdeal.Whole

open Cert.KernelIdeal Cert.KernelIdeal.Gen Cert.Quadrant
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body loads and stores its whole staging blocks: the rectangles start at the origin. -/
theorem at_origin : (![0, 0] : Fin 2 → Nat) = fun _ => 0 := funext fun a => by fin_cases a <;> rfl

/-- The index maps, decided over the 1024 grid points: for the points and for the output alike, point t's block is
    the t-th along the rows and the only one along the columns. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT t WRITES BACK is block t of the one-hot rows of the array of points as the region finds it. -/
theorem written_block (c : Dev nD) (t : Fin cfg0.N) :
    (dats m 0 c).flushed 1 t
      = ((cfg0.win 1).blk t).view.read (Elt Ideal) (oneHot (n := 16777216) (V m c main_arg0)) := by
  rw [Value.flushed1]
  unfold out0_1
  obtain ⟨e00, e01, e10, e11⟩ := block_indices t
  funext j
  show View.canon ([⟨r0_1, k0_pay1 (View.ld (iblk m c 0 t) r0_0)⟩] : List (View.Piece (Elt Ideal) S16384x4 .f32)) j
      = oneHot (n := 16777216) (V m c main_arg0) (((cfg0.win 1).blk t).view.emb j)
  simp only [View.ld_unit_zero (S := S16384x2) at_origin]
  refine (Value.canon1_eq _ j).trans ?_
  refine Rows.block_agrees (iblk m c 0 t) (V m c main_arg0) t.val ?_ j _ ?_ ?_
  · intro r cc R hR
    show V m c main_arg0 (((cfg0.win 0).blk t).view.emb (ix2 r cc)) = V m c main_arg0 (ix2 R cc)
    refine congrArg _ (funext fun a => Fin.ext ?_)
    match a with
    | ⟨0, _⟩ => show win0_0.index t (0 : Fin 2) * 16384 + 1 * r.val = R.val; omega
    | ⟨1, _⟩ => show win0_0.index t (1 : Fin 2) * 2 + 1 * cc.val = cc.val; omega
  · show win0_1.index t (0 : Fin 2) * 16384 + 1 * (j 0).val = t.val * 16384 + (j 0).val; omega
  · show win0_1.index t (1 : Fin 2) * 4 + 1 * (j 1).val = (j 1).val; omega

/-- An index of the output lies in point t's block iff each coordinate lies in the block's range on its axis. -/
theorem mem_block (t : Fin cfg0.N) (i : S16777216x4.Idx) :
    i ∈ ((cfg0.win 1).blk t).view.set ↔ ∀ a : Fin 2, win0_1.index t a * S16384x4.size a ≤ (i a).val
      ∧ (i a).val < win0_1.index t a * S16384x4.size a + S16384x4.size a := by
  show i ∈ ((View.whole main_v0).slice (win0_1.rect t)).set ↔ _
  rw [View.set_slice_whole, Rect.mem_set_unit]
  exact Iff.rfl

/-- THE BLOCKS COVER THE OUTPUT: row R of the output lies in the block of point R / 16384, which writes back. -/
theorem covered (i : S16777216x4.Idx) :
    ∃ t : Fin cfg0.N, (cfg0.win 1).flush t = true ∧ i ∈ ((cfg0.win 1).blk t).view.set := by
  have hi0 : (i 0).val < 16777216 := (i 0).isLt
  have hi1 : (i 1).val < 4 := (i 1).isLt
  have hN : grid0.N = 1024 := N_0
  obtain ⟨t, ht⟩ : ∃ t : Fin cfg0.N, t.val = (i 0).val / 16384 :=
    ⟨⟨(i 0).val / 16384, by show (i 0).val / 16384 < grid0.N; rw [hN]; omega⟩, rfl⟩
  obtain ⟨-, -, e10, e11⟩ := block_indices t
  refine ⟨t, flush0_1 t, ?_⟩
  rw [mem_block]
  intro a
  match a with
  | ⟨0, _⟩ =>
    show win0_1.index t (0 : Fin 2) * 16384 ≤ (i 0).val ∧ (i 0).val < win0_1.index t (0 : Fin 2) * 16384 + 16384
    omega
  | ⟨1, _⟩ =>
    show win0_1.index t (1 : Fin 2) * 4 ≤ (i 1).val ∧ (i 1).val < win0_1.index t (1 : Fin 2) * 4 + 4
    omega

/-- THE OUTPUT ARRAY after the run is the one-hot rows of the argument. -/
theorem final_array (c : Dev nD) :
    (dats m 0 c).arrAt 1 cfg0.N = oneHot (n := 16777216) (m ((c : Thread nD τ).loc main_arg0)) :=
  (dats m 0 c).arrAt_eq_of_cover 1 (oneHot (n := 16777216) (V m c main_arg0))
    (fun t _ => written_block m c t) covered

/-- THE RUN: every weakly fair execution terminates with the output at the one-hot rows of the argument and the
    argument unchanged. -/
theorem run : θ_run defs (onTc (τ := τ) (main (F := Ideal))) ⟨m, fun _ => 0, ρ⟩ fun r => ∀ c : Dev nD,
      r.2.mem ((c : Thread nD τ).loc main_v0) = oneHot (n := 16777216) (m ((c : Thread nD τ).loc main_arg0))
      ∧ r.2.mem ((c : Thread nD τ).loc main_arg0) = m ((c : Thread nD τ).loc main_arg0) :=
  (θ_run defs _ _).mono (fun r h c => ⟨(h c).1.trans (final_array m c), (h c).2⟩) (Value.run_blocks m ρ)

end Cert.KernelIdeal.Whole

end
-- ==== Proof.ReferenceRows.lean ====
/-
  The reference computes the one-hot quadrant rows.

  The reference cuts the two coordinate columns out of the array of points and flattens them, compares each with
  zero from both sides, conjoins one comparison per coordinate for each of the four quadrants, stands each of the
  four bit vectors up as a column, joins the four columns side by side, and turns every bit into a number. Read at
  row r and column k this is: the membership bit of the point in row r for quadrant k, as a number, which is entry
  k of that point's one-hot row. The quadrants come out in the order 0, 1, 2, 3 of the specification because the
  joined columns are, in order, (above, above), (below, above), (below, below), (above, below).
-/
import proofs.«146208_j50096498540623_2_alg».proof.Proof.Gen.ReferenceIdeal.Read
import proofs.«146208_j50096498540623_2_alg».proof.Proof.Quadrant
import Idealize.ShloMosaic.Lib.ValueIdx
import Idealize.ShloMosaic.Lib.Pipeline.Value

noncomputable section

namespace Cert.ReferenceIdeal.Rows

open Cert.ReferenceIdeal Cert.ReferenceIdeal.Read Cert.Quadrant
open Idealize.ShloMosaic Idealize.ShloMosaic.ValueIdx

variable (x : (⟨S16777216x2, .f32⟩ : BufTy).Contents (Elt Ideal)) (r : Fin 16777216)

/-! ## The two coordinates of the point in row r -/

/-- The first flattened column at r is the point's first coordinate. -/
theorem first_coordinate : val_main_v1 (F := Ideal) x (ix1 r) = x (ix2 r (0 : Fin 2)) := by
  rw [val_main_v1_apply, val_main_v0_apply]
  refine congrArg x (funext fun a => ?_)
  match a with
  | ⟨0, _⟩ => exact Fin.ext (Nat.div_one _)
  | ⟨1, _⟩ => rfl

/-- The second flattened column at r is the point's second coordinate. -/
theorem second_coordinate : val_main_v3 (F := Ideal) x (ix1 r) = x (ix2 r (1 : Fin 2)) := by
  rw [val_main_v3_apply, val_main_v2_apply]
  refine congrArg x (funext fun a => ?_)
  match a with
  | ⟨0, _⟩ => exact Fin.ext (Nat.div_one _)
  | ⟨1, _⟩ => rfl

/-! ## The four membership bits at row r

Each is the conjunction of one comparison of each coordinate with zero; every zero the comparisons use is the same
broadcast constant, which at any index is the axis' coordinate. -/

theorem bit_above_above (h : 0 < 4) :
    val_main_v8 (F := Ideal) x (ix1 r) = member ⟨0, h⟩ (x (ix2 r (0 : Fin 2))) (x (ix2 r (1 : Fin 2))) := by
  rw [val_main_v8_apply, val_main_v5_apply, val_main_v7_apply, first_coordinate, second_coordinate]; rfl

theorem bit_below_above (h : 1 < 4) :
    val_main_v13 (F := Ideal) x (ix1 r) = member ⟨1, h⟩ (x (ix2 r (0 : Fin 2))) (x (ix2 r (1 : Fin 2))) := by
  rw [val_main_v13_apply, val_main_v10_apply, val_main_v12_apply, first_coordinate, second_coordinate]; rfl

theorem bit_below_below (h : 2 < 4) :
    val_main_v18 (F := Ideal) x (ix1 r) = member ⟨2, h⟩ (x (ix2 r (0 : Fin 2))) (x (ix2 r (1 : Fin 2))) := by
  rw [val_main_v18_apply, val_main_v15_apply, val_main_v17_apply, first_coordinate, second_coordinate]; rfl

theorem bit_above_below (h : 3 < 4) :
    val_main_v23 (F := Ideal) x (ix1 r) = member ⟨3, h⟩ (x (ix2 r (0 : Fin 2))) (x (ix2 r (1 : Fin 2))) := by
  rw [val_main_v23_apply, val_main_v20_apply, val_main_v22_apply, first_coordinate, second_coordinate]; rfl

/-! ## The four columns, and their join -/

/-- The four one-column bit matrices the reference joins, in order. -/
def columns : Fin 4 → (S16777216x1.Idx → BitVec 1) := fun n =>
  match n with
  | ⟨0, _⟩ => val_main_v24 (F := Ideal) x
  | ⟨1, _⟩ => val_main_v25 (F := Ideal) x
  | ⟨2, _⟩ => val_main_v26 (F := Ideal) x
  | ⟨3, _⟩ => val_main_v27 (F := Ideal) x
  | ⟨_ + 4, h⟩ => absurd h (Nat.not_lt.2 (Nat.le_add_left _ _))

/-- A bit vector stood up as a column reads, in row r, the vector's entry r: the row index of (r, 0) is r. -/
theorem row_of_column : idx_main_v24 (ix2 r (0 : Fin 1)) = ix1 r :=
  funext fun a => match a with | ⟨0, _⟩ => rfl

/-- Column k in row r is the point's membership bit for quadrant k. -/
theorem columns_apply (k : Fin 4) :
    columns x k (ix2 r (0 : Fin 1)) = member k (x (ix2 r (0 : Fin 2))) (x (ix2 r (1 : Fin 2))) := by
  match k with
  | ⟨0, h⟩ =>
    show val_main_v24 (F := Ideal) x (ix2 r (0 : Fin 1)) = _
    rw [val_main_v24_apply, row_of_column]; exact bit_above_above x r h
  | ⟨1, h⟩ =>
    show val_main_v25 (F := Ideal) x (ix2 r (0 : Fin 1)) = _
    rw [val_main_v25_apply]
    show val_main_v13 (F := Ideal) x (idx_main_v24 (ix2 r (0 : Fin 1))) = _
    rw [row_of_column]; exact bit_below_above x r h
  | ⟨2, h⟩ =>
    show val_main_v26 (F := Ideal) x (ix2 r (0 : Fin 1)) = _
    rw [val_main_v26_apply]
    show val_main_v18 (F := Ideal) x (idx_main_v24 (ix2 r (0 : Fin 1))) = _
    rw [row_of_column]; exact bit_below_below x r h
  | ⟨3, h⟩ =>
    show val_main_v27 (F := Ideal) x (ix2 r (0 : Fin 1)) = _
    rw [val_main_v27_apply]
    show val_main_v23 (F := Ideal) x (idx_main_v24 (ix2 r (0 : Fin 1))) = _
    rw [row_of_column]; exact bit_above_below x r h
  | ⟨_ + 4, h⟩ => exact absurd h (Nat.not_lt.2 (Nat.le_add_left _ _))

/-- THE JOIN at (r, k): four columns of width one side by side, so column k of the result is the k-th of them,
    read in the same row. -/
theorem joined_apply (k : Fin 4) :
    val_main_v28 (F := Ideal) x (ix2 r k) = member k (x (ix2 r (0 : Fin 2))) (x (ix2 r (1 : Fin 2))) := by
  unfold val_main_v28
  show concatenate S16777216x4 1 (List.ofFn fun n : Fin 4 =>
      (⟨S16777216x1, columns x n⟩ : (s : Shape) × (s.Idx → BitVec 1))) _ (ix2 r k) = _
  refine (concatenate_ofFn_unit_apply (t := S16777216x4) (s₁ := S16777216x1) (1 : Fin 2) (columns x) _ rfl rfl
    (ix2 r k) k rfl (ix2 r (0 : Fin 1)) (fun b hb => ?_)).trans (columns_apply x r k)
  match b with
  | ⟨0, _⟩ => rfl
  | ⟨1, _⟩ => exact absurd rfl hb

/-! ## The result -/

/-- THE REFERENCE'S RESULT is the array of one-hot quadrant rows of its argument. -/
theorem result_is_oneHot : val_main_v29 (F := Ideal) x = oneHot (n := 16777216) x := by
  funext i
  obtain ⟨r, k, rfl⟩ : ∃ (r : Fin 16777216) (k : Fin 4), i = ix2 r k := ⟨i 0, i 1, eq_ix2 i⟩
  rw [val_main_v29_apply, joined_apply x r k]
  rfl

end Cert.ReferenceIdeal.Rows

end
-- ==== Proof.lean ====
/-
  A row of two numbers is a point of the plane; the kernel and the reference both send every such point to the
  one-hot row of four numbers that says which open quadrant it lies in (all zeros on an axis). This file proves that
  the two programs, read on the extended reals, compute that same array from the same array of points.

  The kernel works block by block: 1024 grid points, each taking 16384 rows of points to the same 16384 rows of the
  output, and the blocks tile the output, so its output array is the one-hot rows of its argument (Proof/KernelRows,
  Proof/KernelArray). The reference works on whole columns at once and joins the four quadrant columns; its result,
  read at a row and a column, is the same entry (Proof/ReferenceRows). The two differ only in how a membership bit
  becomes a number — padded to a word and read as signed, against read directly as unsigned — and these agree on a
  single bit (Proof/Quadrant). No arithmetic is done on the coordinates, only comparisons with zero, so nothing here
  depends on the coordinates being finite.

  Each program also runs to the end without a fault and leaves its argument as it found it; for the two kernel
  programs that is the generated frame, and for the reference it is its generated run with the result dropped. The
  idealized kernel is the kernel's own text read on the extended reals: no rewrite was applied, so there is nothing
  to preserve beyond that.
-/
import proofs.«146208_j50096498540623_2_alg».proof.Defs
import proofs.«146208_j50096498540623_2_alg».proof.Proof.Gen.Kernel
import proofs.«146208_j50096498540623_2_alg».proof.Proof.Gen.Kernel.Skeleton
import proofs.«146208_j50096498540623_2_alg».proof.Proof.Gen.Kernel.Launch
import proofs.«146208_j50096498540623_2_alg».proof.Proof.Gen.Kernel.Points
import proofs.«146208_j50096498540623_2_alg».proof.Proof.Gen.Kernel.Frame
import proofs.«146208_j50096498540623_2_alg».proof.Proof.Gen.KernelIdeal
import proofs.«146208_j50096498540623_2_alg».proof.Proof.Gen.KernelIdeal.Skeleton
import proofs.«146208_j50096498540623_2_alg».proof.Proof.Gen.KernelIdeal.Launch
import proofs.«146208_j50096498540623_2_alg».proof.Proof.Gen.KernelIdeal.Points
import proofs.«146208_j50096498540623_2_alg».proof.Proof.Gen.KernelIdeal.Frame
import proofs.«146208_j50096498540623_2_alg».proof.Proof.Gen.ReferenceIdeal
import proofs.«146208_j50096498540623_2_alg».proof.Proof.Gen.Pre_finite_inputs
import proofs.«146208_j50096498540623_2_alg».proof.Proof.Gen.KernelIdeal.Value
import proofs.«146208_j50096498540623_2_alg».proof.Proof.Gen.ReferenceIdeal.Run
import proofs.«146208_j50096498540623_2_alg».proof.Proof.Gen.ReferenceIdeal.Read
import proofs.«146208_j50096498540623_2_alg».proof.Proof.KernelArray
import proofs.«146208_j50096498540623_2_alg».proof.Proof.ReferenceRows
import Idealize.ShloMosaic.Adequacy
import Idealize.ShloMosaic.Init

noncomputable section

namespace Cert.Proof

open Idealize.ShloMosaic Idealize.SL.Sem Cert.Kernel

/-- The kernel as printed runs and leaves its argument unchanged. -/
theorem frame_kernel : Cert.frame_Kernel := fun m ρ _ => Cert.Kernel.Gen.frame m ρ

/-- The kernel read on the extended reals runs and leaves its argument unchanged. -/
theorem frame_kernel_ideal : Cert.frame_KernelIdeal := fun m ρ _ => Cert.KernelIdeal.Gen.frame m ρ

/-- The reference runs and leaves its argument unchanged: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No rewrite was applied in reading the kernel on the extended reals. -/
theorem preserves : Cert.preserves_Kernel_KernelIdeal := trivial

/-- From arrays of points that agree, the kernel's output and the reference's result are both the one-hot quadrant
    rows of that array: the kernel's by its run block by block, the reference's by reading its result index by
    index. -/
theorem algebraic : Cert.algebraic_KernelIdeal_ReferenceIdeal := by
  intro m ρ m' ρ' _ hagree
  refine ⟨fun c => Cert.Quadrant.oneHot (n := 16777216)
      (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, Cert.ReferenceIdeal.Rows.result_is_oneHot, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
